-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S2000x256 : Shape := ⟨2, ![2000, 256]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S32x256x32x32 .f32) (main_arg1 : FVec F S2000x256 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S32x256x32x32 : Shape := ⟨4, ![32, 256, 32, 32]⟩
abbrev S2000x256 : Shape := ⟨2, ![2000, 256]⟩
abbrev S32x256x1024 : Shape := ⟨3, ![32, 256, 1024]⟩
abbrev S256x2000 : Shape := ⟨2, ![256, 2000]⟩
abbrev S32x2000x1024 : Shape := ⟨3, ![32, 2000, 1024]⟩
abbrev S1x256x1024 : Shape := ⟨3, ![1, 256, 1024]⟩
abbrev S1x2000x1024 : Shape := ⟨3, ![1, 2000, 1024]⟩
abbrev S256x1024 : Shape := ⟨2, ![256, 1024]⟩
abbrev S2000x1024 : Shape := ⟨2, ![2000, 1024]⟩
abbrev S1024 : Shape := ⟨1, ![1024]⟩
abbrev S1x1024 : Shape := ⟨2, ![1, 1024]⟩
abbrev S32x2000x32x32 : Shape := ⟨4, ![32, 2000, 32, 32]⟩

abbrev nBuf : Space → Nat
  | .hbm => 13
  | .vmem => 9
  | .smem => 0
  | _ => 0

abbrev bufTy : (tb : Table) → Fin (tcTables nBuf tb) → BufTy
  | .hbm, ⟨0, _⟩ => ⟨S32x256x32x32, .f32⟩
  | .hbm, ⟨1, _⟩ => ⟨S2000x256, .f32⟩
  | .hbm, ⟨2, _⟩ => ⟨S32x256x1024, .f32⟩
  | .hbm, ⟨3, _⟩ => ⟨S2000x256, .bf16⟩
  | .hbm, ⟨4, _⟩ => ⟨S2000x256, .f32⟩
  | .hbm, ⟨5, _⟩ => ⟨S2000x256, .f32⟩
  | .hbm, ⟨6, _⟩ => ⟨S2000x256, .bf16⟩
  | .hbm, ⟨7, _⟩ => ⟨S2000x256, .bf16⟩
  | .hbm, ⟨8, _⟩ => ⟨S256x2000, .bf16⟩
  | .hbm, ⟨9, _⟩ => ⟨S32x256x1024, .f32⟩
  | .hbm, ⟨10, _⟩ => ⟨S32x2000x1024, .f32⟩
  | .hbm, ⟨11, _⟩ => ⟨S32x256x32x32, .f32⟩
  | .hbm, ⟨12, _⟩ => ⟨S32x2000x32x32, .f32⟩
  | .local _ .vmem, ⟨0, _⟩ => ⟨S1x256x1024, .f32⟩
  | .local _ .vmem, ⟨1, _⟩ => ⟨S1x256x1024, .f32⟩
  | .local _ .vmem, ⟨2, _⟩ => ⟨S2000x256, .bf16⟩
  | .local _ .vmem, ⟨3, _⟩ => ⟨S2000x256, .bf16⟩
  | .local _ .vmem, ⟨4, _⟩ => ⟨S256x2000, .bf16⟩
  | .local _ .vmem, ⟨5, _⟩ => ⟨S1x256x1024, .f32⟩
  | .local _ .vmem, ⟨6, _⟩ => ⟨S1x256x1024, .f32⟩
  | .local _ .vmem, ⟨7, _⟩ => ⟨S1x2000x1024, .f32⟩
  | .local _ .vmem, ⟨8, _⟩ => ⟨S1x2000x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x32x32_S32x256x1024 : S32x256x32x32.ShapeCasts S32x256x1024
  bitsLt_bf16_f32 : FTy.bits .bf16 < FTy.bits .f32
  transposes_S2000x256_S256x2000_1_0 : S2000x256.Transposes [1, 0] S256x2000
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x2000_S256x2000_0_0 : ∀ a, (![0, 0] : Fin 2 → Nat) a + S256x2000.size a ≤ S256x2000.size a
  h_S256x2000 : 0 < S256x2000.numel
  shapeCasts_S256x2000_S256x2000 : S256x2000.ShapeCasts S256x2000
  reduces_S2000x1024_S1024 : S2000x1024.Reduces [0] S1024
  shapeCasts_S1024_S1x1024 : S1024.ShapeCasts S1x1024
  broadcasts_S1x1024_S2000x1024 : S1x1024.Broadcasts S2000x1024
  inb_S1x2000x1024_S1x2000x1024_0_0_0 : ∀ a, (![0, 0, 0] : Fin 3 → Nat) a + S1x2000x1024.size a ≤ S1x2000x1024.size a
  h_S1x2000x1024 : 0 < S1x2000x1024.numel
  shapeCasts_S1x2000x1024_S2000x1024 : S1x2000x1024.ShapeCasts S2000x1024
  shapeCasts_S2000x1024_S1x2000x1024 : S2000x1024.ShapeCasts S1x2000x1024
  shapeCasts_S256x1024_S1x256x1024 : S256x1024.ShapeCasts S1x256x1024
  shapeCasts_S32x256x1024_S32x256x32x32 : S32x256x1024.ShapeCasts S32x256x32x32
  shapeCasts_S32x2000x1024_S32x2000x32x32 : S32x2000x1024.ShapeCasts S32x2000x32x32
  dot_S2000x256_S256x1024_S2000x1024_1_0_0_1_n_n_wf : DotDims.WF S2000x256 S256x1024 S2000x1024 [1] [0] [0] [1] [] []
  dot_S256x2000_S2000x1024_S256x1024_1_0_0_1_n_n_wf : DotDims.WF S256x2000 S2000x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .bf16 = 32 ∨ (Rect.block (s := S2000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S2000x256.size a
  hwx0_2 : ∀ i : grid0.Coords, EltTy.bits .bf16 = 32 ∨ (Rect.block (s := S2000x256) S2000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2000.size a ≤ S256x2000.size a
  hwx0_3 : ∀ i : grid0.Coords, EltTy.bits .bf16 = 32 ∨ (Rect.block (s := S256x2000) S256x2000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S32x256x1024.size a
  hwx0_4 : ∀ i : grid0.Coords, EltTy.bits .f32 = 32 ∨ (Rect.block (s := S32x256x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2000x1024.size a ≤ S32x2000x1024.size a
  hwx0_5 : ∀ i : grid0.Coords, EltTy.bits .f32 = 32 ∨ (Rect.block (s := S32x2000x1024) S1x2000x1024.size (cc0_transform_5 i) (hinb0_5 i)).WholeWords (EltTy.packing .f32)

variable [Facts₀]

def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S256x2000_S2000x1024_S256x1024_1_0_0_1_n_n : DotDims S256x2000 S2000x1024 S256x1024 where
  lhsContracting := [1]
  rhsContracting := [0]
  lhsNonContracting := [0]
  rhsNonContracting := [1]
  lhsBatch := []
  rhsBatch := []
  wf := dot_S256x2000_S2000x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S2000x256 : Shape := ⟨2, ![2000, 256]⟩
abbrev S32x32x32x256 : Shape := ⟨4, ![32, 32, 32, 256]⟩
abbrev S32768x256 : Shape := ⟨2, ![32768, 256]⟩
abbrev S256x2000 : Shape := ⟨2, ![256, 2000]⟩
abbrev S32768x2000 : Shape := ⟨2, ![32768, 2000]⟩
abbrev S_ : Shape := ⟨0, ![]⟩
abbrev S32768 : Shape := ⟨1, ![32768]⟩
abbrev S32768x1 : Shape := ⟨2, ![32768, 1]⟩
abbrev S32x32x32x2000 : Shape := ⟨4, ![32, 32, 32, 2000]⟩
abbrev S32x2000x32x32 : Shape := ⟨4, ![32, 2000, 32, 32]⟩

abbrev nBuf : Space → Nat
  | .hbm => 49
  | .vmem => 0
  | .smem => 0
  | _ => 0

abbrev bufTy : (tb : Table) → Fin (tcTables nBuf tb) → BufTy
  | .hbm, ⟨0, _⟩ => ⟨S32x256x32x32, .f32⟩
  | .hbm, ⟨1, _⟩ => ⟨S2000x256, .f32⟩
  | .hbm, ⟨2, _⟩ => ⟨S32x32x32x256, .f32⟩
  | .hbm, ⟨3, _⟩ => ⟨S32768x256, .f32⟩
  | .hbm, ⟨4, _⟩ => ⟨S256x2000, .f32⟩
  | .hbm, ⟨5, _⟩ => ⟨S32768x2000, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2000, .f32⟩
  | .hbm, ⟨13, _⟩ => ⟨S32768x2000, .f32⟩
  | .hbm, ⟨14, _⟩ => ⟨S32768x2000, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2000, .f32⟩
  | .hbm, ⟨19, _⟩ => ⟨S32768x2000, .f32⟩
  | .hbm, ⟨20, _⟩ => ⟨S_, .f32⟩
  | .hbm, ⟨21, _⟩ => ⟨S32768x2000, .f32⟩
  | .hbm, ⟨22, _⟩ => ⟨S32768x2000, .f32⟩
  | .hbm, ⟨23, _⟩ => ⟨S_, .f32⟩
  | .hbm, ⟨24, _⟩ => ⟨S32768x2000, .f32⟩
  | .hbm, ⟨25, _⟩ => ⟨S32768x2000, .f32⟩
  | .hbm, ⟨26, _⟩ => ⟨S32768x2000, .f32⟩
  | .hbm, ⟨27, _⟩ => ⟨S_, .f32⟩
  | .hbm, ⟨28, _⟩ => ⟨S32768x2000, .f32⟩
  | .hbm, ⟨29, _⟩ => ⟨S32768x2000, .f32⟩
  | .hbm, ⟨30, _⟩ => ⟨S32768x2000, .f32⟩
  | .hbm, ⟨31, _⟩ => ⟨S_, .f32⟩
  | .hbm, ⟨32, _⟩ => ⟨S32768x2000, .f32⟩
  | .hbm, ⟨33, _⟩ => ⟨S32768x2000, .f32⟩
  | .hbm, ⟨34, _⟩ => ⟨S32768x2000, .f32⟩
  | .hbm, ⟨35, _⟩ => ⟨S32768x2000, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x2000, .f32⟩
  | .hbm, ⟨43, _⟩ => ⟨S32768x2000, .f32⟩
  | .hbm, ⟨44, _⟩ => ⟨S32768x256, .f32⟩
  | .hbm, ⟨45, _⟩ => ⟨S32x32x32x256, .f32⟩
  | .hbm, ⟨46, _⟩ => ⟨S32x256x32x32, .f32⟩
  | .hbm, ⟨47, _⟩ => ⟨S32x32x32x2000, .f32⟩
  | .hbm, ⟨48, _⟩ => ⟨S32x2000x32x32, .f32⟩
  | _, _ => ⟨S32x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  transposes_S32x256x32x32_S32x32x32x256_0_2_3_1 : S32x256x32x32.Transposes [0, 2, 3, 1] S32x32x32x256
  shapeCasts_S32x32x32x256_S32768x256 : S32x32x32x256.ShapeCasts S32768x256
  transposes_S2000x256_S256x2000_1_0 : S2000x256.Transposes [1, 0] S256x2000
  reducesTo_S32768x2000_S32768_d1 : S32768x2000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  bcast_S_S32768x1 : S_.BroadcastsInDim S32768x1 (![] : Fin 0 → Fin S32768x1.rank)
  shapeCasts_S32768x256_S32x32x32x256 : S32768x256.ShapeCasts S32x32x32x256
  transposes_S32x32x32x256_S32x256x32x32_0_3_1_2 : S32x32x32x256.Transposes [0, 3, 1, 2] S32x256x32x32
  shapeCasts_S32768x2000_S32x32x32x2000 : S32768x2000.ShapeCasts S32x32x32x2000
  transposes_S32x32x32x2000_S32x2000x32x32_0_3_1_2 : S32x32x32x2000.Transposes [0, 3, 1, 2] S32x2000x32x32
  dot_S32768x256_S256x2000_S32768x2000_1_0_0_1_n_n_wf : DotDims.WF S32768x256 S256x2000 S32768x2000 [1] [0] [0] [1] [] []
  dot_S32768x2000_S2000x256_S32768x256_1_0_0_1_n_n_wf : DotDims.WF S32768x2000 S2000x256 S32768x256 [1] [0] [0] [1] [] []

variable [Facts₀]

def dot_S32768x256_S256x2000_S32768x2000_1_0_0_1_n_n : DotDims S32768x256 S256x2000 S32768x2000 where
  lhsContracting := [1]
  rhsContracting := [0]
  lhsNonContracting := [0]
  rhsNonContracting := [1]
  lhsBatch := []
  rhsBatch := []
  wf := dot_S32768x256_S256x2000_S32768x2000_1_0_0_1_n_n_wf
def dot_S32768x2000_S2000x256_S32768x256_1_0_0_1_n_n : DotDims S32768x2000 S2000x256 S32768x256 where
  lhsContracting := [1]
  rhsContracting := [0]
  lhsNonContracting := [0]
  rhsNonContracting := [1]
  lhsBatch := []
  rhsBatch := []
  wf := dot_S32768x2000_S2000x256_S32768x256_1_0_0_1_n_n_wf

class Facts : Prop extends Facts₀ where

variable [Facts]
-- ==== Proof.Spec.lean ====
/-
  The memory-addressing map, stated once on extended reals.

  For one token (a batch index b and a pixel (h, w)) the logits are  a k = Σ_c mem(k, c) · x(b, c, h, w)  over the
  2000 memory slots k.  The attention weights are: the softmax of the logits (taken after subtracting the largest
  logit, the maximum starting from −∞), hard-shrunk by  relu(p − λ) · p / (|p − λ| + ε),  then divided by their
  L1 norm clamped below at ε.  The read-out is  y(b, c, h, w) = Σ_k mem(k, c) · att k.
  The constants λ = 0.0025 and ε = 1e-12 are kept as their float patterns: the same patterns appear on both sides.
-/
import Idealize.ShloMosaic.PureOps.Ideal
import Idealize.ShloMosaic.PureOps.Ideal.Laws
import Idealize.ShloMosaic.Lib.ValueIdx

noncomputable section

open scoped BigOperators

namespace Cert.MemAddr

open Idealize.ShloMosaic Idealize.ShloMosaic.ValueIdx

/-- −∞, λ = 0.0025, ε = 1e-12 and 0, as the float patterns both programs carry. -/
abbrev negInf : EReal := Ideal.ofBits .f32 0xFF800000#32
abbrev lam : EReal := Ideal.ofBits .f32 0x3B23D70A#32
abbrev eps : EReal := Ideal.ofBits .f32 0x2B8CBCCC#32
abbrev zer : EReal := Ideal.ofBits .f32 0x00000000#32

variable {K : Nat}

/-- The largest entry of a row, the maximum taken from −∞ (and once more against −∞). -/
def rowMax (a : Fin K → EReal) : EReal := max negInf ((Finset.univ : Finset (Fin K)).fold max negInf a)

/-- exp of an entry minus the row's maximum. -/
def expo (a : Fin K → EReal) (k : Fin K) : EReal := Ideal.exp (a k - rowMax a)

/-- The softmax of a row. -/
def soft (a : Fin K → EReal) (k : Fin K) : EReal := Ideal.div (expo a k) (∑ k' : Fin K, expo a k')

/-- The hard shrinkage of the softmax:  relu(p − λ) · p / (|p − λ| + ε). -/
def shrink (a : Fin K → EReal) (k : Fin K) : EReal :=
  Ideal.div (max (soft a k - lam) zer * soft a k) (max (soft a k - lam) (-(soft a k - lam)) + eps)

/-- The L1 norm of the shrunk row. -/
def l1 (a : Fin K → EReal) : EReal := ∑ k : Fin K, max (shrink a k) (-(shrink a k))

/-- The attention weights: the shrunk row over its L1 norm, the norm clamped below at ε. -/
def att (a : Fin K → EReal) (k : Fin K) : EReal := Ideal.div (shrink a k) (max (l1 a) eps)

/-- The logits of token (b, h, w): slot k against the token's 256 channels. -/
def logit (x : (⟨4, ![32, 256, 32, 32]⟩ : Shape).Idx → EReal) (mem : (⟨2, ![2000, 256]⟩ : Shape).Idx → EReal)
    (b : Fin 32) (h w : Fin 32) : Fin 2000 → EReal :=
  fun k => ∑ c : Fin 256, mem (ix2 k c) * x (ix4 b c h w)

/-- The attention map, laid out [batch, slot, h, w]. -/
def attMap (x : (⟨4, ![32, 256, 32, 32]⟩ : Shape).Idx → EReal) (mem : (⟨2, ![2000, 256]⟩ : Shape).Idx → EReal) :
    (⟨4, ![32, 2000, 32, 32]⟩ : Shape).Idx → EReal :=
  fun i => att (logit x mem (i 0) (i 2) (i 3)) (i 1)

/-- The read-out, laid out [batch, channel, h, w]. -/
def readOut (x : (⟨4, ![32, 256, 32, 32]⟩ : Shape).Idx → EReal) (mem : (⟨2, ![2000, 256]⟩ : Shape).Idx → EReal) :
    (⟨4, ![32, 256, 32, 32]⟩ : Shape).Idx → EReal :=
  fun i => ∑ k : Fin 2000, mem (ix2 k (i 1)) * att (logit x mem (i 0) (i 2) (i 3)) k

end Cert.MemAddr

end
-- ==== Proof.LibLeadingAxis.lean ====
/-
  A float sum along the leading axis, and four changes of layout, read at an index, at exact (extended-real) arithmetic.

  A vector sum over axis 0 of an n0 × n1 × n2 array from the zero word, at (b, c), is Σ_a of the entries (a, b, c)
  (sumLead3), and the same one rank lower (sumLead2).  An [a, b] array cast to [a, b, 1] and an [a] array cast to
  [1, 1, a] keep their entries (cast_ab_ab1, cast_a_11a); an [a, b, 1] array broadcast along a new last extent and a
  [1, b, c] array broadcast along a new first extent repeat theirs (bcast_ab1_abc, bcast_1bc_abc).
-/
import Idealize.ShloMosaic.PureOps.Ideal.Laws
import Idealize.ShloMosaic.Lib.Pipeline.Value
import Idealize.ShloMosaic.Lib.ValueIdx

noncomputable section

open scoped BigOperators

namespace Cert.LibLeadingAxis

open Idealize.ShloMosaic Idealize.ShloMosaic.ValueIdx

variable {α : Type}

/-! ## Sums along the leading axis -/

/-- Putting coordinate k back in front of (b, c) gives (k, b, c). -/
theorem lift3 {n0 n1 n2 : ℕ} (h : (⟨3, ![n0, n1, n2]⟩ : Shape).Reduces [0] (⟨2, ![n1, n2]⟩ : Shape)) (b : Fin n1) (c : Fin n2)
    (k : Fin ((⟨3, ![n0, n1, n2]⟩ : Shape).size 0)) : h.lift (ix2 b c) k = ix3 (⟨k.val, k.isLt⟩ : Fin n0) b c := by
  funext d; apply Fin.ext
  fin_cases d <;> rfl

/-- Putting coordinate k back in front of c gives (k, c). -/
theorem lift2 {n0 n1 : ℕ} (h : (⟨2, ![n0, n1]⟩ : Shape).Reduces [0] (⟨1, ![n1]⟩ : Shape)) (c : Fin n1)
    (k : Fin ((⟨2, ![n0, n1]⟩ : Shape).size 0)) : h.lift (ix1 c) k = ix2 (⟨k.val, k.isLt⟩ : Fin n0) c := by
  funext d; apply Fin.ext
  fin_cases d <;> rfl

/-- A sum over the leading axis of an n0 × n1 × n2 array, at (b, c), is the sum of the entries (a, b, c). -/
theorem sumLead3 {n0 n1 n2 : ℕ} (src : FVec Ideal ⟨3, ![n0, n1, n2]⟩ .f32)
    (h : (⟨3, ![n0, n1, n2]⟩ : Shape).Reduces [0] (⟨2, ![n1, n2]⟩ : Shape)) (hφ : FKind.Formats .f32)
    (hacc : (0x00000000#32 : BitVec 32) = FKind.add.neutral .f32 hφ) (b : Fin n1) (c : Fin n2) :
    multiReduction (F := Ideal) .add [0] ⟨2, ![n1, n2]⟩ src 0x00000000#32 h hφ hacc (ix2 b c) = ∑ a : Fin n0, src (ix3 a b c) := by
  refine (Ideal.multiReduction_add_single src 0x00000000#32 h hφ hacc (ix2 b c)).trans ?_
  exact Finset.sum_congr rfl fun k _ => congrArg src (lift3 h b c k)

/-- A sum over the leading axis of an n0 × n1 array, at c, is the sum of the entries (a, c). -/
theorem sumLead2 {n0 n1 : ℕ} (src : FVec Ideal ⟨2, ![n0, n1]⟩ .f32)
    (h : (⟨2, ![n0, n1]⟩ : Shape).Reduces [0] (⟨1, ![n1]⟩ : Shape)) (hφ : FKind.Formats .f32)
    (hacc : (0x00000000#32 : BitVec 32) = FKind.add.neutral .f32 hφ) (c : Fin n1) :
    multiReduction (F := Ideal) .add [0] ⟨1, ![n1]⟩ src 0x00000000#32 h hφ hacc (ix1 c) = ∑ a : Fin n0, src (ix2 a c) := by
  refine (Ideal.multiReduction_add_single src 0x00000000#32 h hφ hacc (ix1 c)).trans ?_
  exact Finset.sum_congr rfl fun k _ => congrArg src (lift2 h c k)

/-! ## Layout changes read at an index -/

/-- An [a, b] array cast to [a, b, 1] reads, at (i, j, u), the operand at (i, j). -/
theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [1, 1, a] reads, at (u, v, i), the operand at i. -/
theorem cast_a_11a {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An [a, b, 1] array broadcast to [a, b, c] reads, at (i, j, k), the operand at (i, j, 0). -/
theorem bcast_ab1_abc {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

/-- A [1, b, c] array broadcast to [a, b, c] reads, at (i, j, k), the operand at (0, j, k). -/
theorem bcast_1bc_abc {a b c : ℕ} (hb : b ≠ 1) (hc : c ≠ 1) (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

end Cert.LibLeadingAxis

end
-- ==== Proof.ColumnOps.lean ====
/-
  Columns of a 2000 × 1024 block, read at an index.

  The block's column n is a row of 2000 logits.  Each step of the body — the column maximum from −∞, exp of the
  difference, the column sum, the softmax quotient, the hard shrinkage, the L1 norm and the last quotient — is, at
  entry (k, n), the corresponding row function of column n at k.
-/
import proofs.«128151_j84739704750653_2_alg».proof.Proof.Gen.KernelIdeal.Skeleton
import proofs.«128151_j84739704750653_2_alg».proof.Proof.Spec
import proofs.«128151_j84739704750653_2_alg».proof.Proof.LibLeadingAxis
import Idealize.ShloMosaic.Lib.ValueLayout
import Idealize.ShloMosaic.Lib.Pipeline.Value
import Idealize.ShloMosaic.PureOps.Ideal.Laws

noncomputable section

open scoped BigOperators

namespace Cert.MemAddr.Body

open Idealize.ShloMosaic Idealize.ShloMosaic.ValueIdx Cert.KernelIdeal Cert.KernelIdeal.Gen Cert.MemAddr

/-- Column n of a 2000 × 1024 array. -/
def col (A : FVec Ideal S2000x1024 .f32) (n : Fin 1024) : Fin 2000 → EReal := fun k => A (ix2 k n)

/-- The column maximum taken from −∞, against −∞ once more, as a 1 × 1024 row: at (0, n) the row maximum of column n. -/
theorem colMax_apply (A : FVec Ideal S2000x1024 .f32) (hr : S2000x1024.Reduces [0] S1024) (hφ : FKind.Formats .f32)
    (hacc : (0xFF800000#32 : BitVec 32) = 0xFF800000#32) (hc : S1024.ShapeCasts S1x1024) (n : Fin 1024) :
    shapeCast S1x1024 (maximumf (broadcast S1024 (Scalar.ofBits (F := Ideal) .f32 0xFF800000#32))
      (multiReduction (F := Ideal) .maximumf [0] S1024 A 0xFF800000#32 hr hφ hacc)) hc (ix2 (0 : Fin 1) n)
      = rowMax (col A n) := by
  rw [shapeCast_a_1a_apply, maximumf_apply]
  refine (congrArg (max _) (Ideal.multiReduction_maximumf_single A 0xFF800000#32 hr hφ hacc (ix1 n))).trans ?_
  have e : (A ∘ hr.lift (ix1 n)) = col A n := funext fun k => congrArg A (Cert.LibLeadingAxis.lift2 hr n k)
  rw [e]; rfl

/-- The column sum as a 1 × 1024 row: at (0, n) the sum of column n. -/
theorem colSum_apply (B : FVec Ideal S2000x1024 .f32) (hr : S2000x1024.Reduces [0] S1024) (hφ : FKind.Formats .f32)
    (hacc : (0x00000000#32 : BitVec 32) = 0x00000000#32) (hc : S1024.ShapeCasts S1x1024) (n : Fin 1024) :
    shapeCast S1x1024 (multiReduction (F := Ideal) .add [0] S1024 B 0x00000000#32 hr hφ hacc) hc (ix2 (0 : Fin 1) n)
      = ∑ k : Fin 2000, B (ix2 k n) := by
  rw [shapeCast_a_1a_apply]
  exact Cert.LibLeadingAxis.sumLead2 B hr hφ hacc n

/-! ## The body's steps from the logits on, as functions of the 2000 × 1024 logits -/

/-- exp of the logits minus their column maximum. -/
def expV (A : FVec Ideal S2000x1024 .f32) : FVec Ideal S2000x1024 .f32 :=
  exp (subf A (broadcastTo S2000x1024 (shapeCast S1x1024 (maximumf (broadcast S1024 (Scalar.ofBits (F := Ideal) .f32 0xFF800000#32))
    (multiReduction (F := Ideal) .maximumf [0] S1024 A 0xFF800000#32 reduces_S2000x1024_S1024 (.inl rfl) rfl)) shapeCasts_S1024_S1x1024)
    broadcasts_S1x1024_S2000x1024))

theorem expV_apply (A : FVec Ideal S2000x1024 .f32) (k : Fin 2000) (n : Fin 1024) : expV A (ix2 k n) = expo (col A n) k := by
  unfold expV expo
  show Ideal.exp (A (ix2 k n) - broadcastTo S2000x1024 _ broadcasts_S1x1024_S2000x1024 (ix2 k n)) = _
  rw [broadcastTo_1b_ab_apply, colMax_apply]; rfl

/-- The softmax down each column. -/
def softV (A : FVec Ideal S2000x1024 .f32) : FVec Ideal S2000x1024 .f32 :=
  divf (expV A) (broadcastTo S2000x1024 (shapeCast S1x1024
    (multiReduction (F := Ideal) .add [0] S1024 (expV A) 0x00000000#32 reduces_S2000x1024_S1024 (.inl rfl) rfl) shapeCasts_S1024_S1x1024)
    broadcasts_S1x1024_S2000x1024)

theorem softV_apply (A : FVec Ideal S2000x1024 .f32) (k : Fin 2000) (n : Fin 1024) : softV A (ix2 k n) = soft (col A n) k := by
  unfold softV soft
  show Ideal.div (expV A (ix2 k n)) (broadcastTo S2000x1024 _ broadcasts_S1x1024_S2000x1024 (ix2 k n)) = _
  rw [broadcastTo_1b_ab_apply, colSum_apply, expV_apply]
  exact congrArg (Ideal.div _) (Finset.sum_congr rfl fun k' _ => expV_apply A k' n)

/-- The hard shrinkage of the softmax, entry by entry. -/
def shrinkV (A : FVec Ideal S2000x1024 .f32) : FVec Ideal S2000x1024 .f32 :=
  divf (mulf (maximumf (subf (softV A) (broadcast S2000x1024 (Scalar.ofBits (F := Ideal) .f32 0x3B23D70A#32)))
      (broadcast S2000x1024 (Scalar.ofBits (F := Ideal) .f32 0x00000000#32))) (softV A))
    (addf (absf (subf (softV A) (broadcast S2000x1024 (Scalar.ofBits (F := Ideal) .f32 0x3B23D70A#32))))
      (broadcast S2000x1024 (Scalar.ofBits (F := Ideal) .f32 0x2B8CBCCC#32)))

theorem shrinkV_apply (A : FVec Ideal S2000x1024 .f32) (k : Fin 2000) (n : Fin 1024) : shrinkV A (ix2 k n) = shrink (col A n) k := by
  unfold shrinkV shrink
  show Ideal.div (max (softV A (ix2 k n) - lam) zer * softV A (ix2 k n))
    (max (softV A (ix2 k n) - lam) (-(softV A (ix2 k n) - lam)) + eps) = _
  rw [softV_apply]

/-- The L1 norm of each shrunk column, as a 1 × 1024 row. -/
def l1V (A : FVec Ideal S2000x1024 .f32) : FVec Ideal S1x1024 .f32 :=
  shapeCast S1x1024 (multiReduction (F := Ideal) .add [0] S1024 (absf (shrinkV A)) 0x00000000#32 reduces_S2000x1024_S1024 (.inl rfl) rfl)
    shapeCasts_S1024_S1x1024

theorem l1V_apply (A : FVec Ideal S2000x1024 .f32) (n : Fin 1024) : l1V A (ix2 (0 : Fin 1) n) = l1 (col A n) := by
  unfold l1V l1
  rw [colSum_apply]
  refine Finset.sum_congr rfl fun k _ => ?_
  show max (shrinkV A (ix2 k n)) (-(shrinkV A (ix2 k n))) = _
  rw [shrinkV_apply]

/-- The attention weights: each shrunk column over its clamped L1 norm. -/
def attV (A : FVec Ideal S2000x1024 .f32) : FVec Ideal S2000x1024 .f32 :=
  divf (shrinkV A) (broadcastTo S2000x1024 (maximumf (l1V A) (broadcast S1x1024 (Scalar.ofBits (F := Ideal) .f32 0x2B8CBCCC#32)))
    broadcasts_S1x1024_S2000x1024)

theorem attV_apply (A : FVec Ideal S2000x1024 .f32) (k : Fin 2000) (n : Fin 1024) : attV A (ix2 k n) = att (col A n) k := by
  unfold attV att
  show Ideal.div (shrinkV A (ix2 k n)) (broadcastTo S2000x1024 _ broadcasts_S1x1024_S2000x1024 (ix2 k n)) = _
  rw [broadcastTo_1b_ab_apply, shrinkV_apply]
  show Ideal.div _ (max (l1V A (ix2 (0 : Fin 1) n)) eps) = _
  rw [l1V_apply]

end Cert.MemAddr.Body

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.BodyValue.lean ====
/-
  What the body stores, entry by entry.

  The logits block is the sum of three matrix products: slots against the token block, slots against the token block
  minus itself, and the slots' remainder against the token block.  Where the token block holds real numbers its
  difference with itself is 0, and where the remainder is 0 the third product vanishes too; the logit at (k, n) is then
  Σ_c mem(k, c) · x(c, n).  The attention block stored is the column function of the logits, and the read-out block
  is the product of the transposed slots with it:  Σ_k memT(c, k) · att(k, n).
-/
import proofs.«128151_j84739704750653_2_alg».proof.Proof.ColumnOps
import proofs.«128151_j84739704750653_2_alg».proof.Proof.LibMatmul

noncomputable section

open scoped BigOperators

namespace Cert.MemAddr.Body

open Idealize.ShloMosaic Idealize.ShloMosaic.ValueIdx Cert.KernelIdeal Cert.KernelIdeal.Gen Cert.MemAddr

/-! ## The two matrix products at an index -/

/-- The operand indices of the product, coordinate by coordinate. -/
theorem slots_lhs0 (i : S2000x1024.Idx) (q : dot_S2000x256_S256x1024_S2000x1024_1_0_0_1_n_n.contr.Idx) : (dot_S2000x256_S256x1024_S2000x1024_1_0_0_1_n_n.lhsIdx i q 0).val = (i 0).val := by
  unfold DotDims.lhsIdx
  rw [dif_neg (show ¬(0 : Fin S2000x256.rank) ∈ dot_S2000x256_S256x1024_S2000x1024_1_0_0_1_n_n.lhsBatch by decide), dif_pos (show (0 : Fin S2000x256.rank) ∈ dot_S2000x256_S256x1024_S2000x1024_1_0_0_1_n_n.lhsNonContracting by decide)]
  rfl
theorem slots_lhs1 (i : S2000x1024.Idx) (q : dot_S2000x256_S256x1024_S2000x1024_1_0_0_1_n_n.contr.Idx) : (dot_S2000x256_S256x1024_S2000x1024_1_0_0_1_n_n.lhsIdx i q 1).val = (q ⟨0, by decide⟩).val :=
  dot_S2000x256_S256x1024_S2000x1024_1_0_0_1_n_n.lhsIdx_val_of_single rfl i q
theorem slots_rhs0 (i : S2000x1024.Idx) (q : dot_S2000x256_S256x1024_S2000x1024_1_0_0_1_n_n.contr.Idx) : (dot_S2000x256_S256x1024_S2000x1024_1_0_0_1_n_n.rhsIdx i q 0).val = (q ⟨0, by decide⟩).val :=
  dot_S2000x256_S256x1024_S2000x1024_1_0_0_1_n_n.rhsIdx_val_of_single rfl i q
theorem slots_rhs1 (i : S2000x1024.Idx) (q : dot_S2000x256_S256x1024_S2000x1024_1_0_0_1_n_n.contr.Idx) : (dot_S2000x256_S256x1024_S2000x1024_1_0_0_1_n_n.rhsIdx i q 1).val = (i 1).val := by
  unfold DotDims.rhsIdx
  rw [dif_neg (show ¬(1 : Fin S256x1024.rank) ∈ dot_S2000x256_S256x1024_S2000x1024_1_0_0_1_n_n.rhsBatch by decide), dif_pos (show (1 : Fin S256x1024.rank) ∈ dot_S2000x256_S256x1024_S2000x1024_1_0_0_1_n_n.rhsNonContracting by decide)]
  rfl

/-- [2000, 256] × [256, 1024] into zero, at (k, n): Σ_c L(k, c) · R(c, n). -/
theorem matmulSlots_apply {φ₁ φ₂ : FTy} (L : FVec Ideal S2000x256 φ₁) (R : FVec Ideal S256x1024 φ₂) (k : Fin 2000) (n : Fin 1024) :
    matmul dot_S2000x256_S256x1024_S2000x1024_1_0_0_1_n_n none L R (constant (F := Ideal) S2000x1024 .f32 0x00000000#32) (ix2 k n)
      = ∑ c : Fin 256, L (ix2 k c) * R (ix2 c n) :=
  Cert.LibMatmul.matmul_zero_sum1 dot_S2000x256_S256x1024_S2000x1024_1_0_0_1_n_n none 256 rfl rfl L R (ix2 k n)
    (fun c => ix2 k c) (fun c => ix2 c n)
    (fun q c h => funext fun a => Fin.ext (by
      match a with
      | ⟨0, _⟩ => exact slots_lhs0 _ _
      | ⟨1, _⟩ => exact (slots_lhs1 _ _).trans h))
    (fun q c h => funext fun a => Fin.ext (by
      match a with
      | ⟨0, _⟩ => exact (slots_rhs0 _ _).trans h
      | ⟨1, _⟩ => exact slots_rhs1 _ _))

/-- The operand indices of the product, coordinate by coordinate. -/
theorem read_lhs0 (i : S256x1024.Idx) (q : dot_S256x2000_S2000x1024_S256x1024_1_0_0_1_n_n.contr.Idx) : (dot_S256x2000_S2000x1024_S256x1024_1_0_0_1_n_n.lhsIdx i q 0).val = (i 0).val := by
  unfold DotDims.lhsIdx
  rw [dif_neg (show ¬(0 : Fin S256x2000.rank) ∈ dot_S256x2000_S2000x1024_S256x1024_1_0_0_1_n_n.lhsBatch by decide), dif_pos (show (0 : Fin S256x2000.rank) ∈ dot_S256x2000_S2000x1024_S256x1024_1_0_0_1_n_n.lhsNonContracting by decide)]
  rfl
theorem read_lhs1 (i : S256x1024.Idx) (q : dot_S256x2000_S2000x1024_S256x1024_1_0_0_1_n_n.contr.Idx) : (dot_S256x2000_S2000x1024_S256x1024_1_0_0_1_n_n.lhsIdx i q 1).val = (q ⟨0, by decide⟩).val :=
  dot_S256x2000_S2000x1024_S256x1024_1_0_0_1_n_n.lhsIdx_val_of_single rfl i q
theorem read_rhs0 (i : S256x1024.Idx) (q : dot_S256x2000_S2000x1024_S256x1024_1_0_0_1_n_n.contr.Idx) : (dot_S256x2000_S2000x1024_S256x1024_1_0_0_1_n_n.rhsIdx i q 0).val = (q ⟨0, by decide⟩).val :=
  dot_S256x2000_S2000x1024_S256x1024_1_0_0_1_n_n.rhsIdx_val_of_single rfl i q
theorem read_rhs1 (i : S256x1024.Idx) (q : dot_S256x2000_S2000x1024_S256x1024_1_0_0_1_n_n.contr.Idx) : (dot_S256x2000_S2000x1024_S256x1024_1_0_0_1_n_n.rhsIdx i q 1).val = (i 1).val := by
  unfold DotDims.rhsIdx
  rw [dif_neg (show ¬(1 : Fin S2000x1024.rank) ∈ dot_S256x2000_S2000x1024_S256x1024_1_0_0_1_n_n.rhsBatch by decide), dif_pos (show (1 : Fin S2000x1024.rank) ∈ dot_S256x2000_S2000x1024_S256x1024_1_0_0_1_n_n.rhsNonContracting by decide)]
  rfl

/-- [256, 2000] × [2000, 1024] into zero, at (c, n): Σ_k L(c, k) · R(k, n). -/
theorem matmulRead_apply {φ₁ φ₂ : FTy} (L : FVec Ideal S256x2000 φ₁) (R : FVec Ideal S2000x1024 φ₂) (c : Fin 256) (n : Fin 1024) :
    matmul dot_S256x2000_S2000x1024_S256x1024_1_0_0_1_n_n none L R (constant (F := Ideal) S256x1024 .f32 0x00000000#32) (ix2 c n)
      = ∑ k : Fin 2000, L (ix2 c k) * R (ix2 k n) :=
  Cert.LibMatmul.matmul_zero_sum1 dot_S256x2000_S2000x1024_S256x1024_1_0_0_1_n_n none 2000 rfl rfl L R (ix2 c n)
    (fun k => ix2 c k) (fun k => ix2 k n)
    (fun q k h => funext fun a => Fin.ext (by
      match a with
      | ⟨0, _⟩ => exact read_lhs0 _ _
      | ⟨1, _⟩ => exact (read_lhs1 _ _).trans h))
    (fun q k h => funext fun a => Fin.ext (by
      match a with
      | ⟨0, _⟩ => exact (read_rhs0 _ _).trans h
      | ⟨1, _⟩ => exact read_rhs1 _ _))

/-! ## The logits -/

/-- The logits block from the three loaded blocks: the token block, the slots, the slots' remainder. -/
def logitsV (v0 : FVec Ideal S1x256x1024 .f32) (v6 v8 : FVec Ideal S2000x256 .bf16) : FVec Ideal S2000x1024 .f32 :=
  addf (addf
    (matmul dot_S2000x256_S256x1024_S2000x1024_1_0_0_1_n_n none (shapeCast S2000x256 v6 shapeCasts_S2000x256_S2000x256)
      (truncf .bf16 (shapeCast S256x1024 v0 shapeCasts_S1x256x1024_S256x1024) bitsLt_bf16_f32) (constant (F := Ideal) S2000x1024 .f32 0x00000000#32))
    (matmul dot_S2000x256_S256x1024_S2000x1024_1_0_0_1_n_n none (shapeCast S2000x256 v6 shapeCasts_S2000x256_S2000x256)
      (truncf .bf16 (subf (shapeCast S256x1024 v0 shapeCasts_S1x256x1024_S256x1024) (shapeCast S256x1024 v0 shapeCasts_S1x256x1024_S256x1024)) bitsLt_bf16_f32)
      (constant (F := Ideal) S2000x1024 .f32 0x00000000#32)))
    (matmul dot_S2000x256_S256x1024_S2000x1024_1_0_0_1_n_n none (shapeCast S2000x256 v8 shapeCasts_S2000x256_S2000x256)
      (truncf .bf16 (shapeCast S256x1024 v0 shapeCasts_S1x256x1024_S256x1024) bitsLt_bf16_f32) (constant (F := Ideal) S2000x1024 .f32 0x00000000#32))

/-- Where column n of the token block is real and row k of the remainder is 0, the logit at (k, n) is the plain product. -/
theorem logitsV_apply (v0 : FVec Ideal S1x256x1024 .f32) (v6 v8 : FVec Ideal S2000x256 .bf16) (k : Fin 2000) (n : Fin 1024)
    (hx : ∀ c : Fin 256, ∃ r : ℝ, v0 (ix3 (0 : Fin 1) c n) = (r : EReal)) (h8 : ∀ c : Fin 256, v8 (ix2 k c) = 0) :
    logitsV v0 v6 v8 (ix2 k n) = ∑ c : Fin 256, v6 (ix2 k c) * v0 (ix3 (0 : Fin 1) c n) := by
  unfold logitsV
  rw [addf_apply, addf_apply, matmulSlots_apply, matmulSlots_apply, matmulSlots_apply, shapeCast_self, shapeCast_self]
  have e2 : (∑ c : Fin 256, v6 (ix2 k c) * (truncf .bf16 (subf (shapeCast S256x1024 v0 shapeCasts_S1x256x1024_S256x1024)
      (shapeCast S256x1024 v0 shapeCasts_S1x256x1024_S256x1024)) bitsLt_bf16_f32 : FVec Ideal S256x1024 .bf16) (ix2 c n)) = 0 :=
    Finset.sum_eq_zero fun c _ => by
      show v6 (ix2 k c) * (shapeCast S256x1024 v0 shapeCasts_S1x256x1024_S256x1024 (ix2 c n)
        - shapeCast S256x1024 v0 shapeCasts_S1x256x1024_S256x1024 (ix2 c n)) = 0
      rw [shapeCast_1ab_ab_apply]
      obtain ⟨r, hr⟩ := hx c
      rw [hr, ← EReal.coe_sub, sub_self, EReal.coe_zero, mul_zero]
  have e3 : (∑ c : Fin 256, v8 (ix2 k c) * (truncf .bf16 (shapeCast S256x1024 v0 shapeCasts_S1x256x1024_S256x1024) bitsLt_bf16_f32
      : FVec Ideal S256x1024 .bf16) (ix2 c n)) = 0 :=
    Finset.sum_eq_zero fun c _ => by rw [h8 c, zero_mul]
  rw [e2, e3, add_zero, add_zero]
  refine Finset.sum_congr rfl fun c _ => ?_
  show v6 (ix2 k c) * shapeCast S256x1024 v0 shapeCasts_S1x256x1024_S256x1024 (ix2 c n) = _
  rw [shapeCast_1ab_ab_apply]

/-! ## The payloads are these functions -/

theorem pay5_eq (v0 : Vec Ideal S1x256x1024 .f32) (v6 v8 : Vec Ideal S2000x256 .bf16) :
    k0_pay5 (F := Ideal) v0 v6 v8 = shrinkV (logitsV v0 v6 v8) := rfl

theorem pay6_eq (v0 : Vec Ideal S1x256x1024 .f32) (v6 v8 : Vec Ideal S2000x256 .bf16) :
    k0_pay6 (F := Ideal) v0 v6 v8 = l1V (logitsV v0 v6 v8) := rfl

theorem pay1_eq (A : FVec Ideal S2000x1024 .f32) : k0_pay1 (F := Ideal) (shrinkV A) (l1V A) = attV A := rfl

/-- The attention block stored, at (0, k, n). -/
theorem pay2_apply (A : FVec Ideal S2000x1024 .f32) (u : Fin 1) (k : Fin 2000) (n : Fin 1024) :
    k0_pay2 (F := Ideal) (shrinkV A) (l1V A) (ix3 u k n) = att (col A n) k := by
  unfold k0_pay2
  rw [shapeCast_ab_1ab_apply, pay1_eq, attV_apply]

/-- The read-out block stored, at (0, c, n). -/
theorem pay3_apply (v10 : FVec Ideal S256x2000 .bf16) (A : FVec Ideal S2000x1024 .f32) (u : Fin 1) (c : Fin 256) (n : Fin 1024) :
    k0_pay3 (F := Ideal) (k0_pay4 v10) (shrinkV A) (l1V A) (ix3 u c n) = ∑ k : Fin 2000, v10 (ix2 c k) * att (col A n) k := by
  unfold k0_pay3 k0_pay4
  rw [shapeCast_ab_1ab_apply, matmulRead_apply, shapeCast_self, pay1_eq]
  exact Finset.sum_congr rfl fun k _ => congrArg (v10 (ix2 c k) * ·) (attV_apply A k n)

/-- The same two, at any index of the stored block. -/
theorem pay2_at (A : FVec Ideal S2000x1024 .f32) (j : S1x2000x1024.Idx) :
    k0_pay2 (F := Ideal) (shrinkV A) (l1V A) j = att (col A (j 2)) (j 1) := by
  exact (congrArg (k0_pay2 (F := Ideal) (shrinkV A) (l1V A)) (eq_ix3 j)).trans (pay2_apply A (j 0) (j 1) (j 2))

theorem pay3_at (v10 : FVec Ideal S256x2000 .bf16) (A : FVec Ideal S2000x1024 .f32) (j : S1x256x1024.Idx) :
    k0_pay3 (F := Ideal) (k0_pay4 v10) (shrinkV A) (l1V A) j = ∑ k : Fin 2000, v10 (ix2 (j 1) k) * att (col A (j 2)) k := by
  exact (congrArg (k0_pay3 (F := Ideal) (k0_pay4 v10) (shrinkV A) (l1V A)) (eq_ix3 j)).trans (pay3_apply v10 A (j 0) (j 1) (j 2))

end Cert.MemAddr.Body

end
-- ==== Proof.KernelBlocks.lean ====
/-
  From blocks to arrays: what the two output arrays of the region hold after the run.

  Grid point t works on batch t: it reads block (t, ·, ·) of the token array and the three whole slot matrices, and
  writes block (t, ·, ·) of each output.  So each output array is one function of the arrays the region finds: at
  (b, k, n) the attention weight k of the logits of token (b, n), and at (b, c, n) the read-out of channel c.  The 32
  blocks tile each output array, one batch each.
-/
import proofs.«128151_j84739704750653_2_alg».proof.Proof.Gen.KernelIdeal.Frame
import proofs.«128151_j84739704750653_2_alg».proof.Proof.BodyValue
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.MemAddr.Arrays

open Cert.KernelIdeal Cert.KernelIdeal.Gen Cert.MemAddr Cert.MemAddr.Body

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point is a batch index. -/
theorem tlt (t : Fin cfg0.N) : t.val < 32 := by
  have h := t.isLt
  have hN : cfg0.N = 32 := N_0
  omega

/-- The printed index maps, decided over the grid: the token window and both output windows sit at block (t, 0, 0),
    the three slot windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The whole-array functions -/

/-- The logits of token (b, n) from the token array X [32, 256, 1024] and the slots M [2000, 256]. -/
def tokLogits (X : S32x256x1024.Idx → EReal) (M : S2000x256.Idx → EReal) (b : Fin 32) (n : Fin 1024) : Fin 2000 → EReal :=
  fun k => ∑ c : Fin 256, M (ix2 k c) * X (ix3 b c n)

/-- The attention array [32, 2000, 1024]. -/
def attArr (X : S32x256x1024.Idx → EReal) (M : S2000x256.Idx → EReal) : S32x2000x1024.Idx → EReal :=
  fun i => att (tokLogits X M (i 0) (i 2)) (i 1)

/-- The read-out array [32, 256, 1024], MT the transposed slots [256, 2000]. -/
def readArr (X : S32x256x1024.Idx → EReal) (M : S2000x256.Idx → EReal) (MT : S256x2000.Idx → EReal) : S32x256x1024.Idx → EReal :=
  fun i => ∑ k : Fin 2000, MT (ix2 (i 1) k) * att (tokLogits X M (i 0) (i 2)) k

/-! ## The input blocks, read off the arrays -/

theorem iblk0_apply (c : Dev nD) (t : Fin cfg0.N) (u : Fin 1) (ch : Fin 256) (n : Fin 1024) :
    (iblk m c 0 t : S1x256x1024.Idx → EReal) (ix3 u ch n)
      = (V m c main_v0 : S32x256x1024.Idx → EReal) (ix3 (⟨t.val, tlt t⟩ : Fin 32) ch n) := by
  obtain ⟨e0, e1, e2, -⟩ := idx_facts t
  unfold iblk
  rw [View.read_apply]
  show V m c main_v0 _ = V m c main_v0 _
  congr 1
  funext a; apply Fin.ext
  have hu : u.val = 0 := by omega
  match a with
  | ⟨0, _⟩ => show win0_0.index t (0 : Fin 3) * 1 + 1 * u.val = t.val; omega
  | ⟨1, _⟩ => show win0_0.index t (1 : Fin 3) * 256 + 1 * ch.val = ch.val; omega
  | ⟨2, _⟩ => show win0_0.index t (2 : Fin 3) * 1024 + 1 * n.val = n.val; omega

theorem iblk1_apply (c : Dev nD) (t : Fin cfg0.N) (k : Fin 2000) (ch : Fin 256) :
    (iblk m c 1 t : S2000x256.Idx → EReal) (ix2 k ch) = (V m c main_v1 : S2000x256.Idx → EReal) (ix2 k ch) := by
  obtain ⟨-, -, -, e0, e1, -⟩ := idx_facts t
  unfold iblk
  rw [View.read_apply]
  show V m c main_v1 _ = V m c main_v1 _
  congr 1
  funext a; apply Fin.ext
  match a with
  | ⟨0, _⟩ => show win0_1.index t (0 : Fin 2) * 2000 + 1 * k.val = k.val; omega
  | ⟨1, _⟩ => show win0_1.index t (1 : Fin 2) * 256 + 1 * ch.val = ch.val; omega

theorem iblk2_apply (c : Dev nD) (t : Fin cfg0.N) (k : Fin 2000) (ch : Fin 256) :
    (iblk m c 2 t : S2000x256.Idx → EReal) (ix2 k ch) = (V m c main_v4 : S2000x256.Idx → EReal) (ix2 k ch) := by
  obtain ⟨-, -, -, -, -, e0, e1, -⟩ := idx_facts t
  unfold iblk
  rw [View.read_apply]
  show V m c main_v4 _ = V m c main_v4 _
  congr 1
  funext a; apply Fin.ext
  match a with
  | ⟨0, _⟩ => show win0_2.index t (0 : Fin 2) * 2000 + 1 * k.val = k.val; omega
  | ⟨1, _⟩ => show win0_2.index t (1 : Fin 2) * 256 + 1 * ch.val = ch.val; omega

theorem iblk3_apply (c : Dev nD) (t : Fin cfg0.N) (ch : Fin 256) (k : Fin 2000) :
    (iblk m c 3 t : S256x2000.Idx → EReal) (ix2 ch k) = (V m c main_v6 : S256x2000.Idx → EReal) (ix2 ch k) := by
  obtain ⟨-, -, -, -, -, -, -, e0, e1, -⟩ := idx_facts t
  unfold iblk
  rw [View.read_apply]
  show V m c main_v6 _ = V m c main_v6 _
  congr 1
  funext a; apply Fin.ext
  match a with
  | ⟨0, _⟩ => show win0_3.index t (0 : Fin 2) * 256 + 1 * ch.val = ch.val; omega
  | ⟨1, _⟩ => show win0_3.index t (1 : Fin 2) * 2000 + 1 * k.val = k.val; omega

/-- The logits column n at point t, where the token array is real and the remainder array is 0. -/
theorem col_logits (c : Dev nD) (t : Fin cfg0.N) (n : Fin 1024)
    (hX : ∀ i, ∃ r : ℝ, (V m c main_v0 : S32x256x1024.Idx → EReal) i = (r : EReal))
    (hM2 : ∀ i, (V m c main_v4 : S2000x256.Idx → EReal) i = (0 : EReal)) :
    col (logitsV (iblk m c 0 t) (iblk m c 1 t) (iblk m c 2 t)) n
      = tokLogits (V m c main_v0) (V m c main_v1) (⟨t.val, tlt t⟩ : Fin 32) n := by
  funext k
  show logitsV (iblk m c 0 t) (iblk m c 1 t) (iblk m c 2 t) (ix2 k n) = _
  rw [logitsV_apply _ _ _ k n (fun ch => by rw [iblk0_apply]; exact hX _) (fun ch => by rw [iblk2_apply]; exact hM2 _)]
  unfold tokLogits
  exact Finset.sum_congr rfl fun ch _ => by rw [iblk0_apply, iblk1_apply]

/-! ## What each point writes back, and the arrays after the run -/

/-- An output block's index in its array: batch t, the block's own two coordinates. -/
theorem emb5 (t : Fin cfg0.N) (j : S1x2000x1024.Idx) :
    ((cfg0.win 5).blk t).view.emb j = ix3 (⟨t.val, tlt t⟩ : Fin 32) (j 1) (j 2) := by
  obtain ⟨-, -, -, -, -, -, -, -, -, -, -, -, e0, e1, e2⟩ := idx_facts t
  funext a; apply Fin.ext
  have h0 : (j 0).val < 1 := (j 0).isLt
  match a with
  | ⟨0, _⟩ => show win0_5.index t (0 : Fin 3) * 1 + 1 * (j 0).val = t.val; omega
  | ⟨1, _⟩ => show win0_5.index t (1 : Fin 3) * 2000 + 1 * (j 1).val = (j 1).val; omega
  | ⟨2, _⟩ => show win0_5.index t (2 : Fin 3) * 1024 + 1 * (j 2).val = (j 2).val; omega

theorem emb4 (t : Fin cfg0.N) (j : S1x256x1024.Idx) :
    ((cfg0.win 4).blk t).view.emb j = ix3 (⟨t.val, tlt t⟩ : Fin 32) (j 1) (j 2) := by
  obtain ⟨-, -, -, -, -, -, -, -, -, e0, e1, e2, -⟩ := idx_facts t
  funext a; apply Fin.ext
  have h0 : (j 0).val < 1 := (j 0).isLt
  match a with
  | ⟨0, _⟩ => show win0_4.index t (0 : Fin 3) * 1 + 1 * (j 0).val = t.val; omega
  | ⟨1, _⟩ => show win0_4.index t (1 : Fin 3) * 256 + 1 * (j 1).val = (j 1).val; omega
  | ⟨2, _⟩ => show win0_4.index t (2 : Fin 3) * 1024 + 1 * (j 2).val = (j 2).val; omega

/-- Point t writes back block t of the attention array. -/
theorem flushed5_eq (c : Dev nD) (t : Fin cfg0.N)
    (hX : ∀ i, ∃ r : ℝ, (V m c main_v0 : S32x256x1024.Idx → EReal) i = (r : EReal))
    (hM2 : ∀ i, (V m c main_v4 : S2000x256.Idx → EReal) i = (0 : EReal)) :
    (dats m 0 c).flushed 5 t = ((cfg0.win 5).blk t).view.read (Elt Ideal) (attArr (V m c main_v0) (V m c main_v1)) := by
  show (cfg0.win 5).cut (grid0.coords t) ((dats m 0 c).after 5 t) = _
  rw [after0_5]
  unfold out0_5
  rw [View.canon_unit_zero hz3]
  simp only [View.ld_unit_zero (S := S1x256x1024) hz3, View.ld_unit_zero (S := S2000x256) hz2]
  rw [pay5_eq, pay6_eq]
  funext j
  refine (pay2_at _ j).trans ?_
  show att (col (logitsV (iblk m c 0 t) (iblk m c 1 t) (iblk m c 2 t)) (j 2)) (j 1)
    = attArr (V m c main_v0) (V m c main_v1) (((cfg0.win 5).blk t).view.emb j)
  rw [emb5]
  exact congrArg (fun a => att a (j 1)) (col_logits m c t (j 2) hX hM2)

/-- Point t writes back block t of the read-out array. -/
theorem flushed4_eq (c : Dev nD) (t : Fin cfg0.N)
    (hX : ∀ i, ∃ r : ℝ, (V m c main_v0 : S32x256x1024.Idx → EReal) i = (r : EReal))
    (hM2 : ∀ i, (V m c main_v4 : S2000x256.Idx → EReal) i = (0 : EReal)) :
    (dats m 0 c).flushed 4 t = ((cfg0.win 4).blk t).view.read (Elt Ideal) (readArr (V m c main_v0) (V m c main_v1) (V m c main_v6)) := by
  show (cfg0.win 4).cut (grid0.coords t) ((dats m 0 c).after 4 t) = _
  rw [after0_4]
  unfold out0_4
  rw [View.canon_unit_zero hz3]
  simp only [View.ld_unit_zero (S := S1x256x1024) hz3, View.ld_unit_zero (S := S2000x256) hz2, View.ld_unit_zero (S := S256x2000) hz2]
  rw [pay5_eq, pay6_eq]
  funext j
  refine (pay3_at _ _ j).trans ?_
  refine Eq.trans ?_ (congrArg (readArr (V m c main_v0) (V m c main_v1) (V m c main_v6)) (emb4 t j)).symm
  exact Finset.sum_congr rfl fun k _ => congrArg₂ (fun (a b : EReal) => a * b) (iblk3_apply m c t (j 1) k)
    (congrFun (congrArg att (col_logits m c t (j 2) hX hM2)) k)

/-- An index is in point t's block iff each coordinate is in the block's range. -/
theorem mem_blk5 (t : Fin cfg0.N) (i : S32x2000x1024.Idx) :
    i ∈ ((cfg0.win 5).blk t).view.set ↔ ∀ a : Fin 3, win0_5.index t a * S1x2000x1024.size a ≤ (i a).val ∧ (i a).val < win0_5.index t a * S1x2000x1024.size a + S1x2000x1024.size a := by
  show i ∈ ((View.whole main_v7_1).slice (win0_5.rect t)).set ↔ _
  rw [View.set_slice_whole, Rect.mem_set_unit]
  exact Iff.rfl

theorem mem_blk4 (t : Fin cfg0.N) (i : S32x256x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v7_0).slice (win0_4.rect t)).set ↔ _
  rw [View.set_slice_whole, Rect.mem_set_unit]
  exact Iff.rfl

/-- The point of batch b. -/
def ptOf (b : Fin 32) : Fin cfg0.N := ⟨b.val, by have hN : cfg0.N = 32 := N_0; have := b.isLt; omega⟩

/-- The attention array after the run. -/
theorem final5 (c : Dev nD)
    (hX : ∀ i, ∃ r : ℝ, (V m c main_v0 : S32x256x1024.Idx → EReal) i = (r : EReal))
    (hM2 : ∀ i, (V m c main_v4 : S2000x256.Idx → EReal) i = (0 : EReal)) :
    (dats m 0 c).arrAt 5 cfg0.N = attArr (V m c main_v0) (V m c main_v1) :=
  (dats m 0 c).arrAt_eq_of_cover 5 _ (fun t _ => flushed5_eq m c t hX hM2) fun i => by
    refine ⟨ptOf (i 0), flush0_5 _, ?_⟩
    rw [mem_blk5]
    obtain ⟨-, -, -, -, -, -, -, -, -, -, -, -, e0, e1, e2⟩ := idx_facts (ptOf (i 0))
    have h1 : (i 1).val < 2000 := (i 1).isLt
    have h2 : (i 2).val < 1024 := (i 2).isLt
    have hp : (ptOf (i 0)).val = (i 0).val := rfl
    intro a
    match a with
    | ⟨0, _⟩ => show win0_5.index (ptOf (i 0)) (0 : Fin 3) * 1 ≤ (i 0).val ∧ (i 0).val < win0_5.index (ptOf (i 0)) (0 : Fin 3) * 1 + 1; omega
    | ⟨1, _⟩ => show win0_5.index (ptOf (i 0)) (1 : Fin 3) * 2000 ≤ (i 1).val ∧ (i 1).val < win0_5.index (ptOf (i 0)) (1 : Fin 3) * 2000 + 2000; omega
    | ⟨2, _⟩ => show win0_5.index (ptOf (i 0)) (2 : Fin 3) * 1024 ≤ (i 2).val ∧ (i 2).val < win0_5.index (ptOf (i 0)) (2 : Fin 3) * 1024 + 1024; omega

/-- The read-out array after the run. -/
theorem final4 (c : Dev nD)
    (hX : ∀ i, ∃ r : ℝ, (V m c main_v0 : S32x256x1024.Idx → EReal) i = (r : EReal))
    (hM2 : ∀ i, (V m c main_v4 : S2000x256.Idx → EReal) i = (0 : EReal)) :
    (dats m 0 c).arrAt 4 cfg0.N = readArr (V m c main_v0) (V m c main_v1) (V m c main_v6) :=
  (dats m 0 c).arrAt_eq_of_cover 4 _ (fun t _ => flushed4_eq m c t hX hM2) fun i => by
    refine ⟨ptOf (i 0), flush0_4 _, ?_⟩
    rw [mem_blk4]
    obtain ⟨-, -, -, -, -, -, -, -, -, e0, e1, e2, -⟩ := idx_facts (ptOf (i 0))
    have h1 : (i 1).val < 256 := (i 1).isLt
    have h2 : (i 2).val < 1024 := (i 2).isLt
    have hp : (ptOf (i 0)).val = (i 0).val := rfl
    intro a
    match a with
    | ⟨0, _⟩ => show win0_4.index (ptOf (i 0)) (0 : Fin 3) * 1 ≤ (i 0).val ∧ (i 0).val < win0_4.index (ptOf (i 0)) (0 : Fin 3) * 1 + 1; omega
    | ⟨1, _⟩ => show win0_4.index (ptOf (i 0)) (1 : Fin 3) * 256 ≤ (i 1).val ∧ (i 1).val < win0_4.index (ptOf (i 0)) (1 : Fin 3) * 256 + 256; omega
    | ⟨2, _⟩ => show win0_4.index (ptOf (i 0)) (2 : Fin 3) * 1024 ≤ (i 2).val ∧ (i 2).val < win0_4.index (ptOf (i 0)) (2 : Fin 3) * 1024 + 1024; omega

end Cert.MemAddr.Arrays

end
-- ==== Proof.Finite.lean ====
/-
  The precondition read back: every entry of both inputs is a real number.

  The precondition says that |x| < +∞ holds at every entry of x and of the memory matrix (two reductions by "and"
  over all axes, conjoined).  An extended real whose absolute value is below +∞ is neither infinity, so it is a real.
-/
import proofs.«128151_j84739704750653_2_alg».proof.Pre_finite_inputs
import proofs.«128151_j84739704750653_2_alg».proof.Proof.Gen.Pre_finite_inputs
import Idealize.ShloMosaic.Lib.ReduceAll
import Idealize.ShloMosaic.Lib.ValueIdx
import Idealize.ShloMosaic.PureOps.Ideal

noncomputable section

namespace Cert.MemAddr.Finite

open Idealize.ShloMosaic Idealize.ShloMosaic.ValueIdx

instance : Subsingleton Cert.Pre_finite_inputs.S_.Idx := ⟨fun a b => funext fun d => d.elim0⟩

/-- The f32 pattern of +∞ is the top element. -/
theorem ofBits_pos_inf : Ideal.ofBits .f32 0x7F800000#32 = (⊤ : EReal) := by simp [Ideal.ofBits, Ideal.ieee]

/-- |x| < +∞ makes x a real. -/
theorem real_of_abs_lt_top (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  induction x using EReal.rec with
  | bot => exact absurd hlt (by simp)
  | coe r => exact ⟨r, rfl⟩
  | top => exact absurd hlt (by simp)

/-- The precondition, all ones, makes every entry of both inputs real. -/
theorem real_of_pre (a0 : FVec Ideal Cert.Pre_finite_inputs.S32x256x32x32 .f32) (a1 : FVec Ideal Cert.Pre_finite_inputs.S2000x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  unfold Cert.Pre_finite_inputs.fn at h0
  dsimp only at h0
  obtain ⟨h3, h7⟩ := IntOp.andi_eq_one.1 h0
  exact ⟨fun i => real_of_abs_lt_top (a0 i) (Host.reduce_andi_all _ _ _ _ _ h3 i),
    fun i => real_of_abs_lt_top (a1 i) (Host.reduce_andi_all _ _ _ _ _ h7 i)⟩

end Cert.MemAddr.Finite

end
-- ==== Proof.KernelRun.lean ====
/-
  The kernel program's run, read: the host lines around the region, and the two results as the memory-addressing map.

  Before the region the host reshapes x to [32, 256, 1024] (pixel n = h·32 + w), takes the slots, their remainder
  mem − mem and their transpose.  Where every entry of mem is real the remainder is 0, and where every entry of x is
  real so is every entry of the reshaped array.  After the region the host splits the pixel axis of both outputs back
  into (h, w).  Index by index the two results are then the read-out and the attention map of x and mem.
-/
import proofs.«128151_j84739704750653_2_alg».proof.Defs
import proofs.«128151_j84739704750653_2_alg».proof.Proof.KernelBlocks
import proofs.«128151_j84739704750653_2_alg».proof.Proof.Finite
import Idealize.ShloMosaic.Lib.StableHlo.Run
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.MemAddr.KRun

open Cert.KernelIdeal Cert.KernelIdeal.Gen Cert.MemAddr Cert.MemAddr.Body Cert.MemAddr.Arrays

variable (m : (ℓ : Loc nD τ sig) → Buf (Elt Ideal) ℓ) (ρ : Dev nD → PrngReg)

/-! ## The host lines before the region -/

theorem V_v0 (c : Dev nD) : (V m c main_v0 : S32x256x1024.Idx → EReal)
    = shapeCast S32x256x1024 (m ((c : Thread nD τ).loc main_arg0)) shapeCasts_S32x256x32x32_S32x256x1024 := by
  show StableHlo.after hostOps0 (fun b => m (c, b)) (Proc.devRef .tc main_v0) = _
  after_results
  rfl

theorem V_v1_apply (c : Dev nD) (i : S2000x256.Idx) :
    (V m c main_v1 : S2000x256.Idx → EReal) i = (m ((c : Thread nD τ).loc main_arg1) : S2000x256.Idx → EReal) i := by
  have e : (V m c main_v1 : S2000x256.Idx → EReal) = (m ((c : Thread nD τ).loc main_arg1) : S2000x256.Idx → EReal) := by
    show StableHlo.after hostOps0 (fun b => m (c, b)) (Proc.devRef .tc main_v1) = _
    after_results
    rfl
  exact congrFun e i

/-- An array minus itself, entry by entry. -/
def selfDiff (a : S2000x256.Idx → EReal) : S2000x256.Idx → EReal := fun i => a i - a i

theorem V_v4 (c : Dev nD) : (V m c main_v4 : S2000x256.Idx → EReal) = selfDiff (m ((c : Thread nD τ).loc main_arg1)) := by
  show StableHlo.after hostOps0 (fun b => m (c, b)) (Proc.devRef .tc main_v4) = _
  after_results
  rfl

theorem V_v6_apply (c : Dev nD) (ch : Fin 256) (k : Fin 2000) :
    (V m c main_v6 : S256x2000.Idx → EReal) (ix2 ch k) = (m ((c : Thread nD τ).loc main_arg1) : S2000x256.Idx → EReal) (ix2 k ch) := by
  have e : (V m c main_v6 : S256x2000.Idx → EReal)
      = transpose S256x2000 [1, 0] (m ((c : Thread nD τ).loc main_arg1) : S2000x256.Idx → EReal) transposes_S2000x256_S256x2000_1_0 := by
    show StableHlo.after hostOps0 (fun b => m (c, b)) (Proc.devRef .tc main_v6) = _
    after_results
    rfl
  rw [e, transpose_ix2_apply]

/-- The pixel n = h·32 + w. -/
def pix (h w : Fin 32) : Fin 1024 := ⟨h.val * 32 + w.val, by have := h.isLt; have := w.isLt; omega⟩

/-- x reshaped to [32, 256, 1024], at (b, c, h·32 + w), is x at (b, c, h, w). -/
theorem reshape_in {α : Type} (x : S32x256x32x32.Idx → α) (hc : S32x256x32x32.ShapeCasts S32x256x1024) (b : Fin 32) (ch : Fin 256) (h w : Fin 32) :
    shapeCast S32x256x1024 x hc (ix3 b ch (pix h w)) = x (ix4 b ch h w) :=
  shapeCast_apply x hc _ _ (by
    rw [Shape.rowMajor_val_three, Shape.rowMajor_val_four]
    show ((b.val * 256 + ch.val) * 32 + h.val) * 32 + w.val = (b.val * 256 + ch.val) * 1024 + (h.val * 32 + w.val)
    omega)

/-- A [32, d, 1024] array reshaped to [32, d, 32, 32], at (b, k, h, w), is the array at (b, k, h·32 + w). -/
theorem reshape_out {α : Type} {d : ℕ} (y : (⟨3, ![32, d, 1024]⟩ : Shape).Idx → α)
    (hc : (⟨3, ![32, d, 1024]⟩ : Shape).ShapeCasts ⟨4, ![32, d, 32, 32]⟩) (b : Fin 32) (k : Fin d) (h w : Fin 32) :
    shapeCast ⟨4, ![32, d, 32, 32]⟩ y hc (ix4 b k h w) = y (ix3 b k (pix h w)) :=
  shapeCast_apply y hc _ _ (by
    rw [Shape.rowMajor_val_three, Shape.rowMajor_val_four]
    show (b.val * d + k.val) * 1024 + (h.val * 32 + w.val) = ((b.val * d + k.val) * 32 + h.val) * 32 + w.val
    omega)

/-- Real inputs: the reshaped token array is real, the remainder array is 0. -/
theorem entry_real (c : Dev nD)
    (h0 : ∀ i, ∃ r : ℝ, (m ((c : Thread nD τ).loc main_arg0) : S32x256x32x32.Idx → EReal) i = (r : EReal)) :
    ∀ i, ∃ r : ℝ, (V m c main_v0 : S32x256x1024.Idx → EReal) i = (r : EReal) := by
  intro i
  rw [V_v0]
  exact h0 _

theorem entry_zero (c : Dev nD)
    (h1 : ∀ i, ∃ r : ℝ, (m ((c : Thread nD τ).loc main_arg1) : S2000x256.Idx → EReal) i = (r : EReal)) :
    ∀ i, (V m c main_v4 : S2000x256.Idx → EReal) i = (0 : EReal) := by
  intro i
  rw [V_v4]
  obtain ⟨r, hr⟩ := h1 i
  unfold selfDiff
  rw [hr, ← EReal.coe_sub, sub_self, EReal.coe_zero]

/-- The logits of token (b, h·32 + w) from the arrays the region finds are the logits of (b, h, w) from x and mem. -/
theorem tokLogits_eq (c : Dev nD) (b : Fin 32) (h w : Fin 32) :
    tokLogits (V m c main_v0) (V m c main_v1) b (pix h w)
      = logit (m ((c : Thread nD τ).loc main_arg0)) (m ((c : Thread nD τ).loc main_arg1)) b h w := by
  funext k
  unfold tokLogits logit
  refine Finset.sum_congr rfl fun ch _ => ?_
  exact congrArg₂ (fun (a b : EReal) => a * b) (V_v1_apply m c (ix2 k ch))
    ((congrFun (V_v0 m c) _).trans (reshape_in _ _ b ch h w))

/-- The attention array at (b, k, h·32 + w) is the attention map at (b, k, h, w). -/
theorem attArr_eq (c : Dev nD) (b : Fin 32) (k : Fin 2000) (h w : Fin 32) :
    attArr (V m c main_v0) (V m c main_v1) (ix3 b k (pix h w))
      = attMap (m ((c : Thread nD τ).loc main_arg0)) (m ((c : Thread nD τ).loc main_arg1)) (ix4 b k h w) := by
  show att (tokLogits (V m c main_v0) (V m c main_v1) b (pix h w)) k = _
  rw [tokLogits_eq]
  rfl

/-- The read-out array at (b, c, h·32 + w) is the read-out at (b, c, h, w). -/
theorem readArr_eq (c : Dev nD) (b : Fin 32) (ch : Fin 256) (h w : Fin 32) :
    readArr (V m c main_v0) (V m c main_v1) (V m c main_v6) (ix3 b ch (pix h w))
      = readOut (m ((c : Thread nD τ).loc main_arg0)) (m ((c : Thread nD τ).loc main_arg1)) (ix4 b ch h w) := by
  unfold readArr readOut
  refine Finset.sum_congr rfl fun k _ => ?_
  exact congrArg₂ (fun (a b : EReal) => a * b) (V_v6_apply m c ch k) (congrFun (congrArg att (tokLogits_eq m c b h w)) k)

/-! ## The host lines after the region -/

theorem tail_v9 (c : Dev nD) : Pipeline.afterTail₀ cfgs (dats m) 0 (V0 m) [hostOps1] c main_v9
    = shapeCast S32x2000x32x32 ((dats m 0 c).arrAt 5 cfg0.N) shapeCasts_S32x2000x1024_S32x2000x32x32 := by
  unfold Pipeline.afterTail₀
  show StableHlo.after hostOps1 _ (Proc.devRef .tc main_v9) = _
  after_results
  exact congrArg (fun x => shapeCast S32x2000x32x32 x shapeCasts_S32x2000x1024_S32x2000x32x32)
    (Pipeline.withArrays_arr spec0 launch0.win.arr_inj c (V0 m c) (fun w => (dats m 0 c).arrAt w (cfgs 0).N) 5)

theorem tail_v8 (c : Dev nD) : Pipeline.afterTail₀ cfgs (dats m) 0 (V0 m) [hostOps1] c main_v8
    = shapeCast S32x256x32x32 ((dats m 0 c).arrAt 4 cfg0.N) shapeCasts_S32x256x1024_S32x256x32x32 := by
  unfold Pipeline.afterTail₀
  show StableHlo.after hostOps1 _ (Proc.devRef .tc main_v8) = _
  after_results
  exact congrArg (fun x => shapeCast S32x256x32x32 x shapeCasts_S32x256x1024_S32x256x32x32)
    (Pipeline.withArrays_arr spec0 launch0.win.arr_inj c (V0 m c) (fun w => (dats m 0 c).arrAt w (cfgs 0).N) 4)

/-- The attention result. -/
theorem result_att (c : Dev nD)
    (h0 : ∀ i, ∃ r : ℝ, (m ((c : Thread nD τ).loc main_arg0) : S32x256x32x32.Idx → EReal) i = (r : EReal))
    (h1 : ∀ i, ∃ r : ℝ, (m ((c : Thread nD τ).loc main_arg1) : S2000x256.Idx → EReal) i = (r : EReal)) :
    Pipeline.afterTail₀ cfgs (dats m) 0 (V0 m) [hostOps1] c main_v9
      = attMap (m ((c : Thread nD τ).loc main_arg0)) (m ((c : Thread nD τ).loc main_arg1)) := by
  rw [tail_v9, final5 m c (entry_real m c h0) (entry_zero m c h1)]
  funext i
  obtain ⟨b, k, h, w, rfl⟩ : ∃ (b : Fin 32) (k : Fin 2000) (h w : Fin 32), i = ix4 b k h w := ⟨i 0, i 1, i 2, i 3, eq_ix4 i⟩
  rw [reshape_out]
  exact attArr_eq m c b k h w

/-- The read-out result. -/
theorem result_read (c : Dev nD)
    (h0 : ∀ i, ∃ r : ℝ, (m ((c : Thread nD τ).loc main_arg0) : S32x256x32x32.Idx → EReal) i = (r : EReal))
    (h1 : ∀ i, ∃ r : ℝ, (m ((c : Thread nD τ).loc main_arg1) : S2000x256.Idx → EReal) i = (r : EReal)) :
    Pipeline.afterTail₀ cfgs (dats m) 0 (V0 m) [hostOps1] c main_v8
      = readOut (m ((c : Thread nD τ).loc main_arg0)) (m ((c : Thread nD τ).loc main_arg1)) := by
  rw [tail_v8, final4 m c (entry_real m c h0) (entry_zero m c h1)]
  funext i
  obtain ⟨b, ch, h, w, rfl⟩ : ∃ (b : Fin 32) (ch : Fin 256) (h w : Fin 32), i = ix4 b ch h w := ⟨i 0, i 1, i 2, i 3, eq_ix4 i⟩
  rw [reshape_out]
  exact readArr_eq m c b ch h w

/-! ## The run -/

/-- Under the precondition, every weakly fair execution of the kernel program ends with the two results at the
    read-out and the attention map of its inputs, and the inputs unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v8) = readOut (m ((c.tc : Thread nD τ).loc main_arg0)) (m ((c.tc : Thread nD τ).loc main_arg1))
      ∧ r.2.mem ((c.tc : Thread nD τ).loc main_v9) = attMap (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have hr := Cert.MemAddr.Finite.real_of_pre _ _ (hpre c)
    ⟨((h c).2 main_v8 (Pipeline.mem_restRefs_of main_v8 (by decide) (by decide))).trans (result_read m c hr.1 hr.2),
     ((h c).2 main_v9 (Pipeline.mem_restRefs_of main_v9 (by decide) (by decide))).trans (result_att m c hr.1 hr.2),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.MemAddr.KRun

end
-- ==== Proof.LibRowMax.lean ====
/-
  The host's maximum-reduce along the rows of an m × n array, read at a row, at exact (extended-real) arithmetic:
  at row N it is the maximum, folded from the initial value, of the entries (N, k) over the n columns k.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- Putting column k back behind row N gives (N, k). -/
theorem lift_row {m n : ℕ} (h : (⟨2, ![m, n]⟩ : Shape).Reduces [1] (⟨1, ![m]⟩ : Shape)) (N : Fin m)
    (k : Fin ((⟨2, ![m, n]⟩ : Shape).size 1)) : h.lift (ix1 N) k = ix2 N (⟨k.val, k.isLt⟩ : Fin n) := by
  funext d; apply Fin.ext
  fin_cases d <;> rfl

/-- The host's reduce with a maximum body over axis 1 of an m × n array, at row N: the fold of max from the initial
    value over the row's entries. -/
theorem hostReduceMax_row {m n : ℕ} {u : Shape} (x : FVec Ideal ⟨2, ![m, n]⟩ .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (N : Fin m) :
    Host.reduce FloatOps.maximumf x init h' hu (ix1 N)
      = (Finset.univ : Finset (Fin n)).fold max (init (Shape.Idx.first hu)) (fun k => x (ix2 N k)) := by
  rw [Host.reduce_eq_fold_single FloatOps.maximumf x init h' h hu]
  have e : (x ∘ h.lift (ix1 N)) = fun k : Fin n => x (ix2 N k) := funext fun k => congrArg x (lift_row h N k)
  rw [e]; rfl

end Cert.LibRowMax

end
-- ==== Proof.RefRows.lean ====
/-
  The reference, row by row.

  The reference flattens the tokens (b, h, w) into 32768 rows and works on a 32768 × 2000 logits matrix.  Every step
  from the row maximum on is, at entry (N, k), the corresponding row function of row N at k: the row maximum from −∞,
  exp of the difference, the row sum (started from 0), the softmax quotient, the hard shrinkage, the L1 norm (started
  from 0) clamped below at ε, and the last quotient.
-/
import proofs.«128151_j84739704750653_2_alg».proof.Proof.Gen.ReferenceIdeal.Read
import proofs.«128151_j84739704750653_2_alg».proof.Proof.Spec
import proofs.«128151_j84739704750653_2_alg».proof.Proof.LibRowMax
import Idealize.ShloMosaic.PureOps.Reduce
import Idealize.ShloMosaic.PureOps.Ideal.Laws

noncomputable section

open scoped BigOperators

namespace Cert.MemAddr.Ref

open Idealize.ShloMosaic Idealize.ShloMosaic.ValueIdx Cert.ReferenceIdeal Cert.ReferenceIdeal.Gen Cert.ReferenceIdeal.Read Cert.MemAddr

variable (x0 : (⟨S32x256x32x32, .f32⟩ : BufTy).Contents (Elt Ideal)) (x1 : (⟨S2000x256, .f32⟩ : BufTy).Contents (Elt Ideal))

/-- Row N of the reference's logits matrix. -/
def row (N : Fin 32768) : Fin 2000 → EReal := fun k => val_main_v3 (F := Ideal) x0 x1 (ix2 N k)

theorem reduces_d1 : S32768x2000.Reduces [1] S32768 := by decide

/-- The row maximum, the fold from −∞. -/
theorem v4_apply (N : Fin 32768) :
    val_main_v4 (F := Ideal) x0 x1 (ix1 N) = (Finset.univ : Finset (Fin 2000)).fold max negInf (row x0 x1 N) := by
  unfold val_main_v4
  exact Cert.LibRowMax.hostReduceMax_row (val_main_v3 (F := Ideal) x0 x1) (val_main_cst (F := Ideal))
    reducesTo_S32768x2000_S32768_d1 reduces_d1 h_S_ N

theorem v6_apply (N : Fin 32768) : val_main_v6 (F := Ideal) x0 x1 (ix1 N) = rowMax (row x0 x1 N) := by
  rw [val_main_v6_apply, v4_apply, val_main_v5_apply]; rfl

theorem idx78 (N : Fin 32768) (k : Fin 2000) : idx_main_v7 (idx_main_v8 (ix2 N k)) = ix1 N :=
  funext fun a => Fin.ext (by match a with | ⟨0, _⟩ => rfl)

theorem v10_apply (N : Fin 32768) (k : Fin 2000) : val_main_v10 (F := Ideal) x0 x1 (ix2 N k) = expo (row x0 x1 N) k := by
  rw [val_main_v10_apply, val_main_v9_apply, val_main_v8_apply, val_main_v7_apply, idx78, v6_apply]; rfl

theorem idx1213 (N : Fin 32768) (k : Fin 2000) : idx_main_v12 (idx_main_v13 (ix2 N k)) = ix1 N :=
  funext fun a => Fin.ext (by match a with | ⟨0, _⟩ => rfl)

theorem idx11 (N : Fin 32768) (k : Fin 2000) : idx_main_v11 (ix1 N) k = ix2 N k :=
  funext fun a => Fin.ext (by match a with | ⟨0, _⟩ => rfl | ⟨1, _⟩ => rfl)

theorem v14_apply (N : Fin 32768) (k : Fin 2000) : val_main_v14 (F := Ideal) x0 x1 (ix2 N k) = soft (row x0 x1 N) k := by
  rw [val_main_v14_apply, val_main_v13_apply, val_main_v12_apply, idx1213, val_main_v11_apply, v10_apply]
  unfold soft
  refine congrArg (Ideal.div _) ?_
  show Ideal.ofBits .f32 0x00000000#32 + _ = _
  rw [Ideal.ofBits_zero_f32, zero_add]
  exact Finset.sum_congr rfl fun k' _ => by rw [idx11, v10_apply]

theorem v24_apply (N : Fin 32768) (k : Fin 2000) : val_main_v24 (F := Ideal) x0 x1 (ix2 N k) = shrink (row x0 x1 N) k := by
  rw [val_main_v24_apply, val_main_v18_apply, val_main_v17_apply, val_main_v16_apply, val_main_v23_apply, val_main_v21_apply,
    val_main_v20_apply, v14_apply, val_main_v15_apply, val_main_v19_apply, val_main_v22_apply, val_main_call0_v0_apply]
  rfl

theorem idx27 (N : Fin 32768) (k : Fin 2000) : idx_main_v27 (idx_main_v30 (ix2 N k)) = ix1 N :=
  funext fun a => Fin.ext (by match a with | ⟨0, _⟩ => rfl)

theorem idx26 (N : Fin 32768) (k : Fin 2000) : idx_main_v26 (ix1 N) k = ix2 N k :=
  funext fun a => Fin.ext (by match a with | ⟨0, _⟩ => rfl | ⟨1, _⟩ => rfl)

theorem v26_apply (N : Fin 32768) : val_main_v26 (F := Ideal) x0 x1 (ix1 N) = l1 (row x0 x1 N) := by
  rw [val_main_v26_apply]
  unfold l1
  show Ideal.ofBits .f32 0x00000000#32 + _ = _
  rw [Ideal.ofBits_zero_f32, zero_add]
  exact Finset.sum_congr rfl fun k' _ => by rw [idx26, val_main_v25_apply, v24_apply]; rfl

/-- The attention weights of row N. -/
theorem v31_apply (N : Fin 32768) (k : Fin 2000) : val_main_v31 (F := Ideal) x0 x1 (ix2 N k) = att (row x0 x1 N) k := by
  rw [val_main_v31_apply, val_main_v30_apply, val_main_v29_apply, val_main_v27_apply, idx27, v26_apply, v24_apply, val_main_v28_apply]
  rfl

end Cert.MemAddr.Ref

end
-- ==== Proof.RefValue.lean ====
/-
  The reference's two results are the memory-addressing map.

  Token (b, h, w) is row N = (b·32 + h)·32 + w of the flattened matrices.  Its logits row is Σ_c x(b, c, h, w) · mem(k, c),
  the same products as in the map with the factors exchanged; the attention result at (b, k, h, w) is entry (N, k) of the
  weights and the read-out at (b, c, h, w) is Σ_k weights(N, k) · mem(k, c).
-/
import proofs.«128151_j84739704750653_2_alg».proof.Proof.RefRows

noncomputable section

open scoped BigOperators

namespace Cert.MemAddr.Ref

open Idealize.ShloMosaic Idealize.ShloMosaic.ValueIdx Cert.ReferenceIdeal Cert.ReferenceIdeal.Gen Cert.ReferenceIdeal.Read Cert.MemAddr

variable (x0 : (⟨S32x256x32x32, .f32⟩ : BufTy).Contents (Elt Ideal)) (x1 : (⟨S2000x256, .f32⟩ : BufTy).Contents (Elt Ideal))

/-- The flattened row of token (b, h, w). -/
def tok (b h w : Fin 32) : Fin 32768 := ⟨(b.val * 32 + h.val) * 32 + w.val, by have := b.isLt; have := h.isLt; have := w.isLt; omega⟩

theorem idx_x (b h w : Fin 32) (k : Fin 2000) (c : Fin 256) :
    idx_main_v0 (idx_main_v1 (lidx_main_v3 (ix2 (tok b h w) k) c)) = ix4 b c h w := by
  funext a; apply Fin.ext
  have hb := b.isLt; have hh := h.isLt; have hw := w.isLt; have hc := c.isLt
  match a with
  | ⟨0, _⟩ => show (((b.val * 32 + h.val) * 32 + w.val) * 256 + c.val) / 262144 = b.val; omega
  | ⟨1, _⟩ => show (((b.val * 32 + h.val) * 32 + w.val) * 256 + c.val) % 256 = c.val; omega
  | ⟨2, _⟩ => show (((b.val * 32 + h.val) * 32 + w.val) * 256 + c.val) / 8192 % 32 = h.val; omega
  | ⟨3, _⟩ => show (((b.val * 32 + h.val) * 32 + w.val) * 256 + c.val) / 256 % 32 = w.val; omega

theorem idx_mem (N : Fin 32768) (k : Fin 2000) (c : Fin 256) : idx_main_v2 (ridx_main_v3 (ix2 N k) c) = ix2 k c :=
  funext fun a => Fin.ext (by match a with | ⟨0, _⟩ => rfl | ⟨1, _⟩ => rfl)

/-- The logits row of token (b, h, w). -/
theorem row_tok (b h w : Fin 32) : row x0 x1 (tok b h w) = logit x0 x1 b h w := by
  funext k
  show val_main_v3 (F := Ideal) x0 x1 (ix2 (tok b h w) k) = ∑ c : Fin 256, x1 (ix2 k c) * x0 (ix4 b c h w)
  rw [val_main_v3_apply]
  refine Finset.sum_congr rfl fun c _ => ?_
  rw [val_main_v1_apply, val_main_v0_apply, val_main_v2_apply, idx_x, idx_mem, mul_comm]

theorem idx_att (b : Fin 32) (k : Fin 2000) (h w : Fin 32) : idx_main_v35 (idx_main_v36 (ix4 b k h w)) = ix2 (tok b h w) k := by
  funext a; apply Fin.ext
  have hb := b.isLt; have hh := h.isLt; have hw := w.isLt; have hk := k.isLt
  match a with
  | ⟨0, _⟩ => show (((b.val * 32 + h.val) * 32 + w.val) * 2000 + k.val) / 2000 = (b.val * 32 + h.val) * 32 + w.val; omega
  | ⟨1, _⟩ => show (((b.val * 32 + h.val) * 32 + w.val) * 2000 + k.val) % 2000 = k.val; omega

/-- The reference's attention result is the attention map. -/
theorem v36_eq : val_main_v36 (F := Ideal) x0 x1 = attMap x0 x1 := by
  funext i
  obtain ⟨b, k, h, w, rfl⟩ : ∃ (b : Fin 32) (k : Fin 2000) (h w : Fin 32), i = ix4 b k h w := ⟨i 0, i 1, i 2, i 3, eq_ix4 i⟩
  rw [val_main_v36_apply, val_main_v35_apply, idx_att, v31_apply, row_tok]
  rfl

theorem idx_read (b : Fin 32) (c : Fin 256) (h w : Fin 32) : idx_main_v33 (idx_main_v34 (ix4 b c h w)) = ix2 (tok b h w) c := by
  funext a; apply Fin.ext
  have hb := b.isLt; have hh := h.isLt; have hw := w.isLt; have hc := c.isLt
  match a with
  | ⟨0, _⟩ => show (((b.val * 32 + h.val) * 32 + w.val) * 256 + c.val) / 256 = (b.val * 32 + h.val) * 32 + w.val; omega
  | ⟨1, _⟩ => show (((b.val * 32 + h.val) * 32 + w.val) * 256 + c.val) % 256 = c.val; omega

theorem idx_l32 (N : Fin 32768) (c : Fin 256) (k : Fin 2000) : lidx_main_v32 (ix2 N c) k = ix2 N k :=
  funext fun a => Fin.ext (by match a with | ⟨0, _⟩ => rfl | ⟨1, _⟩ => rfl)

theorem idx_r32 (N : Fin 32768) (c : Fin 256) (k : Fin 2000) : ridx_main_v32 (ix2 N c) k = ix2 k c :=
  funext fun a => Fin.ext (by match a with | ⟨0, _⟩ => rfl | ⟨1, _⟩ => rfl)

/-- The reference's read-out result is the read-out of the map. -/
theorem v34_eq : val_main_v34 (F := Ideal) x0 x1 = readOut x0 x1 := by
  funext i
  obtain ⟨b, c, h, w, rfl⟩ : ∃ (b : Fin 32) (c : Fin 256) (h w : Fin 32), i = ix4 b c h w := ⟨i 0, i 1, i 2, i 3, eq_ix4 i⟩
  rw [val_main_v34_apply, val_main_v33_apply, idx_read, val_main_v32_apply]
  show _ = ∑ k : Fin 2000, x1 (ix2 k c) * att (logit x0 x1 b h w) k
  refine Finset.sum_congr rfl fun k _ => ?_
  rw [idx_l32, idx_r32, v31_apply, row_tok, mul_comm]

end Cert.MemAddr.Ref

end
-- ==== Proof.lean ====
/-
  The kernel against its reference: a memory-addressing module.  Every token (b, h, w) of x [32, 256, 32, 32] is scored
  against the 2000 rows of mem [2000, 256]; the scores are soft-maxed, hard-shrunk by relu(p − λ) · p / (|p − λ| + ε),
  divided by their L1 norm clamped at ε, and used to read mem back.  Results: the read-out [32, 256, 32, 32] and the
  attention map [32, 2000, 32, 32].

  The kernel takes one batch per grid point in the channel-major layout [256, 1024] and forms the scores as three
  products: mem·x, mem·(x − x) and (mem − mem)·x.  Over the extended reals x − x is 0 only where x is a real number,
  which is what the precondition (every input entry finite) gives; the two extra products are then sums of zeros.  From
  the scores on, both programs apply the same operations to the same 2000 scores of a token, the kernel down the
  columns of a [2000, 1024] block and the reference along the rows of a [32768, 2000] matrix; the read-out's products
  have their factors in the opposite order.  So both programs compute the map of Proof/Spec.lean, index by index.
-/
import proofs.«128151_j84739704750653_2_alg».proof.Defs
import proofs.«128151_j84739704750653_2_alg».proof.Proof.Gen.Kernel
import proofs.«128151_j84739704750653_2_alg».proof.Proof.Gen.Kernel.Skeleton
import proofs.«128151_j84739704750653_2_alg».proof.Proof.Gen.Kernel.Launch
import proofs.«128151_j84739704750653_2_alg».proof.Proof.Gen.Kernel.Points
import proofs.«128151_j84739704750653_2_alg».proof.Proof.Gen.Kernel.Frame
import proofs.«128151_j84739704750653_2_alg».proof.Proof.Gen.KernelIdeal
import proofs.«128151_j84739704750653_2_alg».proof.Proof.Gen.KernelIdeal.Skeleton
import proofs.«128151_j84739704750653_2_alg».proof.Proof.Gen.KernelIdeal.Launch
import proofs.«128151_j84739704750653_2_alg».proof.Proof.Gen.KernelIdeal.Points
import proofs.«128151_j84739704750653_2_alg».proof.Proof.Gen.KernelIdeal.Frame
import proofs.«128151_j84739704750653_2_alg».proof.Proof.Gen.ReferenceIdeal
import proofs.«128151_j84739704750653_2_alg».proof.Proof.Gen.ReferenceIdeal.Run
import proofs.«128151_j84739704750653_2_alg».proof.Proof.Gen.ReferenceIdeal.Read
import proofs.«128151_j84739704750653_2_alg».proof.Proof.Gen.Pre_finite_inputs
import proofs.«128151_j84739704750653_2_alg».proof.Proof.KernelRun
import proofs.«128151_j84739704750653_2_alg».proof.Proof.RefValue
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The one rewrite of the idealization: widening what was just narrowed is the identity on exact values. -/
theorem preserves : Cert.preserves_Kernel_KernelIdeal := IdealRules.truncf_extf.statement _ .f32 .bf16

/-- Both idealized programs end with the read-out and the attention map of their (agreeing) inputs. -/
theorem algebraic : Cert.algebraic_KernelIdeal_ReferenceIdeal := by
  intro m ρ m' ρ' hpre hagree
  refine ⟨fun c => Cert.MemAddr.readOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.MemAddr.attMap (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MemAddr.KRun.run m ρ hpre, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v34_eq, Cert.MemAddr.Ref.v34_eq, (hagree c).1, (hagree c).2]
  · rw [(h c).2.1, Cert.ReferenceIdeal.Read.val_main_v36_eq, Cert.MemAddr.Ref.v36_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
